-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x131072 : Shape := ⟨2, ![1024, 131072]⟩
abbrev S131072x64 : Shape := ⟨2, ![131072, 64]⟩
abbrev S_ : Shape := ⟨0, ![]⟩

class Facts : Prop where
  bcast_S_S1024x131072 : S_.BroadcastsInDim S1024x131072 (![] : Fin 0 → Fin S1024x131072.rank)
  reducesTo_S1024x131072_S_d0_1 : S1024x131072.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_

variable [Facts]

def fn {F : FTy → Type} [FloatOps F] (main_arg0 : FVec F S1024x131072 .f32) (main_arg1 : FVec F S131072x64 .f32) : IVec S_ 1 :=
  let main_v0 : FVec F S1024x131072 .f32 := Host.absf main_arg0
  let main_cst : FVec F S_ .f32 := constant S_ .f32 0x7F800000#32
  let main_v1 : FVec F S1024x131072 .f32 := broadcastInDim S1024x131072 ![] bcast_S_S1024x131072 main_cst
  let main_v2 : IVec S1024x131072 1 := cmpf .olt main_v0 main_v1
  let main_c : IVec S_ 1 := constantI S_ 1 1#1
  let main_v3 : IVec S_ 1 := (fun x v => Host.reduce IntOp.andi x v reducesTo_S1024x131072_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  main_v8
-- ==== Kernel.lean ====
abbrev S1024x131072 : Shape := ⟨2, ![1024, 131072]⟩
abbrev S131072x64 : Shape := ⟨2, ![131072, 64]⟩
abbrev S1024x64 : Shape := ⟨2, ![1024, 64]⟩
abbrev S256x8192 : Shape := ⟨2, ![256, 8192]⟩
abbrev S8192x64 : Shape := ⟨2, ![8192, 64]⟩
abbrev S256x64 : Shape := ⟨2, ![256, 64]⟩

abbrev nBuf : Space → Nat
  | .hbm => 3
  | .vmem => 7
  | .smem => 0
  | _ => 0

abbrev bufTy : (tb : Table) → Fin (tcTables nBuf tb) → BufTy
  | .hbm, ⟨0, _⟩ => ⟨S1024x131072, .f32⟩
  | .hbm, ⟨1, _⟩ => ⟨S131072x64, .f32⟩
  | .hbm, ⟨2, _⟩ => ⟨S1024x64, .f32⟩
  | .local _ .vmem, ⟨0, _⟩ => ⟨S256x8192, .f32⟩
  | .local _ .vmem, ⟨1, _⟩ => ⟨S256x8192, .f32⟩
  | .local _ .vmem, ⟨2, _⟩ => ⟨S8192x64, .f32⟩
  | .local _ .vmem, ⟨3, _⟩ => ⟨S8192x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | _, _ => ⟨S1024x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S1024x131072.size a
  hwx0_0 : ∀ i : grid0.Coords, EltTy.bits .f32 = 32 ∨ (Rect.block (s := S1024x131072) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S131072x64.size a
  hwx0_1 : ∀ i : grid0.Coords, EltTy.bits .f32 = 32 ∨ (Rect.block (s := S131072x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S1024x64.size a
  hwx0_2 : ∀ i : grid0.Coords, EltTy.bits .f32 = 32 ∨ (Rect.block (s := S1024x64) S256x64.size (cc0_transform_2 i) (hinb0_2 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x131072 : Shape := ⟨2, ![1024, 131072]⟩
abbrev S131072x64 : Shape := ⟨2, ![131072, 64]⟩
abbrev S1024x64 : Shape := ⟨2, ![1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S1024x131072, .f32⟩
  | .hbm, ⟨1, _⟩ => ⟨S131072x64, .f32⟩
  | .hbm, ⟨2, _⟩ => ⟨S1024x64, .f32⟩
  | _, _ => ⟨S1024x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x131072_S131072x64_S1024x64_1_0_0_1_n_n_wf : DotDims.WF S1024x131072 S131072x64 S1024x64 [1] [0] [0] [1] [] []

variable [Facts₀]

def dot_S1024x131072_S131072x64_S1024x64_1_0_0_1_n_n : DotDims S1024x131072 S131072x64 S1024x64 where
  lhsContracting := [1]
  rhsContracting := [0]
  lhsNonContracting := [0]
  rhsNonContracting := [1]
  lhsBatch := []
  rhsBatch := []
  wf := dot_S1024x131072_S131072x64_S1024x64_1_0_0_1_n_n_wf

class Facts : Prop extends Facts₀ where

variable [Facts]
-- ==== Proof.TileStep.lean ====
/-
  What one grid point leaves behind, as values.

  The body keeps a running [256, 64] block in a scratch buffer that lives across the 16 points of one row of the grid.
  At every point it replaces the running block `acc` by `acc + A · B`, where `A` is the point's [256, 8192] block of the
  first argument and `B` its [8192, 64] block of the second (`k0_pay2 A B acc`). At the first point of a row it first
  overwrites the scratch with the zero block (`k0_pay1`), so there the running block is `0 + A · B`; at the last point
  of a row it also copies the updated running block into the output block. The four lemmas below read these facts off
  the pieces the generated runs found: each buffer is covered by one store through the whole-block rectangle, and every
  load reads a whole buffer.
-/
import proofs.«122120_j42116449304773_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.TileStep

open Cert.KernelIdeal Cert.KernelIdeal.Gen

variable {F : FTy → Type} [FloatOps F]

/-- The offsets of a whole-block access are all zero. -/
theorem hz : (![0, 0] : Fin 2 → Nat) = fun _ => 0 := funext fun a => by fin_cases a <;> rfl

/-- First point of a row: the scratch is zeroed, read back, and left at `0 + A · B`. -/
theorem scratch_first (c : Dev nD) (i : grid0.Coords) (a2 : Memref sig .tc .vmem S256x8192 .f32) (h2 : a2.IsWhole)
    (a3 : Memref sig .tc .vmem S8192x64 .f32) (h3 : a3.IsWhole) (a4 : Memref sig .tc .vmem S256x64 .f32) (h4 : a4.IsWhole)
    (a5 : Memref sig .tc .vmem S256x64 .f32) (h5 : a5.IsWhole) (hc0 : cond0_0 i) (hc1 : ¬cond0_1 i)
    (x0 : Vec F S256x8192 .f32) (x1 : Vec F S8192x64 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S256x64) hz, View.readCov_unit_zero (S := S256x64) _ hz]
  simp only [View.readAt_eq_ld, h2.read_unread, h3.read_unread, View.ld_unit_zero (S := S256x8192) hz,
    View.ld_unit_zero (S := S8192x64) hz]

/-- A middle point of a row: the scratch holding `acc` is left at `acc + A · B`. -/
theorem scratch_middle (c : Dev nD) (i : grid0.Coords) (a2 : Memref sig .tc .vmem S256x8192 .f32) (h2 : a2.IsWhole)
    (a3 : Memref sig .tc .vmem S8192x64 .f32) (h3 : a3.IsWhole) (a4 : Memref sig .tc .vmem S256x64 .f32) (h4 : a4.IsWhole)
    (a5 : Memref sig .tc .vmem S256x64 .f32) (h5 : a5.IsWhole) (hc0 : ¬cond0_0 i) (hc1 : ¬cond0_1 i)
    (x0 : Vec F S256x8192 .f32) (x1 : Vec F S8192x64 .f32) (xs0 : Vec F S256x64 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero (S := S256x64) hz]
  simp only [View.readAt_eq_ld, h2.read_unread, h3.read_unread, h5.read_unread, View.ld_unit_zero (S := S256x8192) hz,
    View.ld_unit_zero (S := S8192x64) hz, View.ld_unit_zero (S := S256x64) hz]

/-- Last point of a row: the scratch holding `acc` is left at `acc + A · B`, -/
theorem scratch_last (c : Dev nD) (i : grid0.Coords) (a2 : Memref sig .tc .vmem S256x8192 .f32) (h2 : a2.IsWhole)
    (a3 : Memref sig .tc .vmem S8192x64 .f32) (h3 : a3.IsWhole) (a4 : Memref sig .tc .vmem S256x64 .f32) (h4 : a4.IsWhole)
    (a5 : Memref sig .tc .vmem S256x64 .f32) (h5 : a5.IsWhole) (hc0 : ¬cond0_0 i) (hc1 : cond0_1 i)
    (x0 : Vec F S256x8192 .f32) (x1 : Vec F S8192x64 .f32) (xs0 : Vec F S256x64 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S256x64) hz]
  simp only [View.readAt_eq_ld, h2.read_unread, h3.read_unread, h5.read_unread, View.ld_unit_zero (S := S256x8192) hz,
    View.ld_unit_zero (S := S8192x64) hz, View.ld_unit_zero (S := S256x64) hz]

/-- and the output block receives that same updated running block, read back from the scratch. -/
theorem output_last (c : Dev nD) (i : grid0.Coords) (a2 : Memref sig .tc .vmem S256x8192 .f32) (h2 : a2.IsWhole)
    (a3 : Memref sig .tc .vmem S8192x64 .f32) (h3 : a3.IsWhole) (a4 : Memref sig .tc .vmem S256x64 .f32) (h4 : a4.IsWhole)
    (a5 : Memref sig .tc .vmem S256x64 .f32) (h5 : a5.IsWhole) (hc0 : ¬cond0_0 i) (hc1 : cond0_1 i)
    (x0 : Vec F S256x8192 .f32) (x1 : Vec F S8192x64 .f32) (xs0 : Vec F S256x64 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S256x64) hz, View.readCov_unit_zero (S := S256x64) _ hz]
  simp only [View.readAt_eq_ld, h2.read_unread, h3.read_unread, h5.read_unread, View.ld_unit_zero (S := S256x8192) hz,
    View.ld_unit_zero (S := S8192x64) hz, View.ld_unit_zero (S := S256x64) hz]

end Cert.KernelIdeal.TileStep

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.TileProduct.lean ====
/-
  One point's arithmetic, entry by entry, over the extended reals.

  At the exact instance a change of float format is the identity, so narrowing the two blocks to bf16 changes nothing, and
  a matrix product into the zero accumulator is a plain sum. Hence entry (p, q) of the updated running block
  `acc + A · B` is acc(p, q) + Σ_k A(p, k) · B(k, q), k running over the block's 8192 positions; and every entry of the
  zero block is 0.
-/
import proofs.«122120_j42116449304773_1_alg».proof.Proof.Gen.KernelIdeal.Skeleton
import proofs.«122120_j42116449304773_1_alg».proof.Proof.LibPlainDot
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.TileProduct

open Cert.KernelIdeal Cert.KernelIdeal.Gen

/-- The tile product contracts the left block's second axis with the right block's first axis and has no batch axis:
    the left block is read at (row, position), the right block at (position, column). -/
theorem plain : PlainDot.IsPlain (M := 256) (K := 8192) (N := 64) dot_S256x8192_S8192x64_S256x64_1_0_0_1_n_n where
  rank := rfl
  size := rfl
  lhs0 := fun i q => by
    unfold DotDims.lhsIdx
    rw [dif_neg (show ¬(0 : Fin S256x8192.rank) ∈ dot_S256x8192_S8192x64_S256x64_1_0_0_1_n_n.lhsBatch by decide),
      dif_pos (show (0 : Fin S256x8192.rank) ∈ dot_S256x8192_S8192x64_S256x64_1_0_0_1_n_n.lhsNonContracting by decide)]
    rfl
  lhs1 := fun i q => dot_S256x8192_S8192x64_S256x64_1_0_0_1_n_n.lhsIdx_val_of_single rfl i q
  rhs0 := fun i q => dot_S256x8192_S8192x64_S256x64_1_0_0_1_n_n.rhsIdx_val_of_single rfl i q
  rhs1 := fun i q => by
    unfold DotDims.rhsIdx
    rw [dif_neg (show ¬(1 : Fin S8192x64.rank) ∈ dot_S256x8192_S8192x64_S256x64_1_0_0_1_n_n.rhsBatch by decide),
      dif_pos (show (1 : Fin S8192x64.rank) ∈ dot_S256x8192_S8192x64_S256x64_1_0_0_1_n_n.rhsNonContracting by decide)]
    rfl

/-- One block pair's sum over its run of 8192 positions, at entry (p, q): Σ_k A(p, k) · B(k, q). -/
def runSum (A : Vec Ideal S256x8192 .f32) (B : Vec Ideal S8192x64 .f32) : Vec Ideal S256x64 .f32 :=
  fun j => ∑ k : Fin 8192, A (ix2 (j 0) k) * B (ix2 k (j 1))

/-- The updated running block, entry by entry: the old entry plus the block pair's run sum. -/
theorem update_apply (A : Vec Ideal S256x8192 .f32) (B : Vec Ideal S8192x64 .f32) (acc : Vec Ideal S256x64 .f32)
    (j : S256x64.Idx) :
    k0_pay2 (F := Ideal) A B acc j = acc j + runSum A B j := by
  obtain ⟨p, q, rfl⟩ : ∃ (p : Fin 256) (q : Fin 64), j = ix2 p q := ⟨j 0, j 1, eq_ix2 j⟩
  unfold k0_pay2 runSum
  rw [shapeCast_self, addf_apply]
  refine congrArg (acc (ix2 p q) + ·) ?_
  exact PlainDot.matmul_zero_apply (M := 256) (K := 8192) (N := 64) dot_S256x8192_S8192x64_S256x64_1_0_0_1_n_n plain none
    (truncf .bf16 A bitsLt_bf16_f32) (truncf .bf16 B bitsLt_bf16_f32) p q

/-- Every entry of the block stored at a row's first point is zero. -/
theorem zero_apply (j : S256x64.Idx) : k0_pay1 (F := Ideal) j = 0 := by
  unfold k0_pay1
  rw [shapeCast_self, broadcast_apply]
  exact Ideal.ofBits_zero_f32

end Cert.KernelIdeal.TileProduct

end
-- ==== Proof.Accumulated.lean ====
/-
  The running block over a row of the grid, as a sum.

  Point n contributes the run sum of its block pair, Σ_k A_n(p, k) · B_n(k, q) (`addend`). The first point of a row
  (n ≡ 0 mod 16) leaves the scratch at 0 + addend n, whatever it held; every later point of the row leaves it at what
  the point before left plus its own addend. So after the point at offset j of the row starting at b = 16·q the scratch
  holds 0 + Σ_{s ≤ j} addend (b + s), and at the row's last point (offset 15) the output block receives exactly that.
-/
import proofs.«122120_j42116449304773_1_alg».proof.Proof.Gen.KernelIdeal.Value
import proofs.«122120_j42116449304773_1_alg».proof.Proof.TileStep
import proofs.«122120_j42116449304773_1_alg».proof.Proof.TileProduct

noncomputable section

open Idealize.ShloMosaic Idealize.ShloMosaic.TcCoe Idealize.ShloMosaic.ValueIdx Idealize.SL.Sem

namespace Cert.KernelIdeal.Accumulated

open Cert.KernelIdeal Cert.KernelIdeal.Gen

variable (m : (ℓ : Loc nD τ sig) → Buf (Elt Ideal) ℓ)

/-- The first argument's block at point t. -/
abbrev blockA (c : Dev nD) (t : Fin cfg0.N) : Vec Ideal S256x8192 .f32 := iblk m c 0 t
/-- The second argument's block at point t. -/
abbrev blockB (c : Dev nD) (t : Fin cfg0.N) : Vec Ideal S8192x64 .f32 := iblk m c 1 t

/-- What point n adds to the running block: the run sum of its block pair (zero for a number that is no point). -/
def addend (c : Dev nD) (n : ℕ) : S256x64.Idx → EReal :=
  fun j => if h : n < cfg0.N then TileProduct.runSum (blockA m c ⟨n, h⟩) (blockB m c ⟨n, h⟩) j else 0

theorem addend_of_lt (c : Dev nD) (n : ℕ) (h : n < cfg0.N) (j : S256x64.Idx) :
    addend m c n j = TileProduct.runSum (blockA m c ⟨n, h⟩) (blockB m c ⟨n, h⟩) j := by
  unfold addend; rw [dif_pos h]

/-- A row's first point leaves 0 + its addend, whatever the scratch held. -/
theorem step_first (c : Dev nD) (n : ℕ) (hb : n < cfg0.N) (h0 : n % 16 = 0) (acc : Vec Ideal S256x64 .f32)
    (j : S256x64.Idx) : Value.scAt0_0 m c n hb acc j = (fun _ => (0 : EReal)) j + addend m c n j := by
  have h1 : ¬n % 16 = 15 := by omega
  unfold Value.scAt0_0
  rw [dif_pos h0, dif_neg h1]
  refine (congrFun (TileStep.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h))
    (blockA m c ⟨n, hb⟩) (blockB m c ⟨n, hb⟩)) j).trans ?_
  refine (TileProduct.update_apply (blockA m c ⟨n, hb⟩) (blockB m c ⟨n, hb⟩) (k0_pay1 (F := Ideal)) j).trans ?_
  rw [TileProduct.zero_apply, addend_of_lt m c n hb]

/-- Every later point of a row leaves what the point before left plus its addend. -/
theorem step_later (c : Dev nD) (n : ℕ) (hb : n < cfg0.N) (h0 : ¬n % 16 = 0) (acc : Vec Ideal S256x64 .f32)
    (j : S256x64.Idx) : Value.scAt0_0 m c n hb acc j = acc j + addend m c n j := by
  unfold Value.scAt0_0
  rw [dif_neg h0]
  by_cases h1 : n % 16 = 15
  · rw [dif_pos h1]
    refine (congrFun (TileStep.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1)
      (blockA m c ⟨n, hb⟩) (blockB m c ⟨n, hb⟩) acc) j).trans ?_
    refine (TileProduct.update_apply (blockA m c ⟨n, hb⟩) (blockB m c ⟨n, hb⟩) acc j).trans ?_
    rw [addend_of_lt m c n hb]
  · rw [dif_neg h1]
    refine (congrFun (TileStep.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h))
      (blockA m c ⟨n, hb⟩) (blockB m c ⟨n, hb⟩) acc) j).trans ?_
    refine (TileProduct.update_apply (blockA m c ⟨n, hb⟩) (blockB m c ⟨n, hb⟩) acc j).trans ?_
    rw [addend_of_lt m c n hb]

/-- After point t the scratch holds zero plus the addends of its row's points up to t. -/
theorem scratch_after (c : Dev nD) (t : Fin cfg0.N) (j : S256x64.Idx) :
    (outsAt0 m c t.val t.isLt).2 j
      = 0 + ∑ s ∈ Finset.range (t.val % 16 + 1), addend m c (16 * (t.val / 16) + s) j := by
  rw [Value.soutsAt0_0_eq m c t]
  exact Pipeline.accAt_add_apply (fun n h => Value.scAt0_0 m c n h (VS0_0.read (Elt Ideal) VS0_0.junk)) (Value.scAt0_0 m c)
    (fun _ => (0 : EReal)) (addend m c) (16 * (t.val / 16)) 15
    (fun h i => step_first m c _ h (Nat.mul_mod_right 16 _) _ i)
    (fun n h acc i hlt hle => step_later m c n h (by omega) acc i)
    (t.val % 16) (by omega) _ j

/-- At a row's last point the output block receives the updated running block. -/
theorem output_eq_scratch (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  exact (TileStep.output_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (TileStep.scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

/-- So at a row's last point, entry j of what is written back is zero plus the 16 addends of the row. -/
theorem written_back (c : Dev nD) (t : Fin cfg0.N) (h1 : t.val % 16 = 15) (j : S256x64.Idx) :
    (outsAt0 m c t.val t.isLt).1 j = 0 + ∑ s ∈ Finset.range 16, addend m c (16 * (t.val / 16) + s) j := by
  rw [output_eq_scratch m c t h1, scratch_after m c t j, h1]

end Cert.KernelIdeal.Accumulated

end
-- ==== Proof.Blocks.lean ====
/-
  Where each grid point's blocks sit in the arrays.

  The grid has 4 × 16 points; point t (counted row by row) has row-block t / 16 and position-run t % 16. At that point the
  first argument's block is rows 256·(t/16) … +255 and positions 8192·(t%16) … +8191 of the [1024, 131072] array, the
  second argument's block is positions 8192·(t%16) … +8191 (all 64 columns) of the [131072, 64] array, and the output's
  block is rows 256·(t/16) … +255 (all 64 columns) of the [1024, 64] result. An entry of a block is the array's entry at
  block index × block size + the coordinate inside the block, on each axis.
-/
import proofs.«122120_j42116449304773_1_alg».proof.Proof.Gen.KernelIdeal.Frame
import Idealize.ShloMosaic.Lib.ValueIdx
import Idealize.ShloMosaic.Lib.Pipeline.Value

noncomputable section

open Idealize.ShloMosaic Idealize.ShloMosaic.TcCoe Idealize.ShloMosaic.ValueIdx Idealize.SL.Sem

namespace Cert.KernelIdeal.Blocks

open Cert.KernelIdeal Cert.KernelIdeal.Gen

variable {F : FTy → Type} [FloatOps F]
variable (m : (ℓ : Loc nD τ sig) → Buf (Elt F) ℓ)

/-- The three windows' block indices at point t, decided once over the 64 points. -/
theorem block_index : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- Entry (p, k) of the first argument's block at point t is the array's entry at row 256·(t/16) + p, position
    8192·(t%16) + k. -/
theorem left_block (c : Dev nD) (t : Fin cfg0.N) (p : Fin 256) (k : Fin 8192) (I : S1024x131072.Idx)
    (h0 : (I 0).val = 256 * (t.val / 16) + p.val) (h1 : (I 1).val = 8192 * (t.val % 16) + k.val) :
    (iblk m c 0 t : Vec F S256x8192 .f32) (ix2 p k) = m ((c : Thread nD τ).loc main_arg0) I := by
  obtain ⟨e0, e1, -⟩ := block_index t
  show V m c main_arg0 (((cfg0.win 0).blk t).view.emb (ix2 p k)) = V m c main_arg0 I
  refine congrArg (V m c main_arg0) (funext fun a => Fin.ext ?_)
  match a with
  | ⟨0, _⟩ => show win0_0.index t (0 : Fin 2) * 256 + 1 * p.val = (I 0).val; omega
  | ⟨1, _⟩ => show win0_0.index t (1 : Fin 2) * 8192 + 1 * k.val = (I 1).val; omega

/-- Entry (k, d) of the second argument's block at point t is the array's entry at position 8192·(t%16) + k, column d. -/
theorem right_block (c : Dev nD) (t : Fin cfg0.N) (k : Fin 8192) (d : Fin 64) (I : S131072x64.Idx)
    (h0 : (I 0).val = 8192 * (t.val % 16) + k.val) (h1 : (I 1).val = d.val) :
    (iblk m c 1 t : Vec F S8192x64 .f32) (ix2 k d) = m ((c : Thread nD τ).loc main_arg1) I := by
  obtain ⟨-, -, e0, e1, -⟩ := block_index t
  show V m c main_arg1 (((cfg0.win 1).blk t).view.emb (ix2 k d)) = V m c main_arg1 I
  refine congrArg (V m c main_arg1) (funext fun a => Fin.ext ?_)
  match a with
  | ⟨0, _⟩ => show win0_1.index t (0 : Fin 2) * 8192 + 1 * k.val = (I 0).val; omega
  | ⟨1, _⟩ => show win0_1.index t (1 : Fin 2) * 64 + 1 * d.val = (I 1).val; omega

/-- Entry (p, d) of the output's block at point t sits in the result at row 256·(t/16) + p, column d. -/
theorem out_block (t : Fin cfg0.N) (p : Fin 256) (d : Fin 64) :
    ((((cfg0.win 2).blk t).view.emb (ix2 p d) : S1024x64.Idx) 0).val = 256 * (t.val / 16) + p.val
    ∧ ((((cfg0.win 2).blk t).view.emb (ix2 p d) : S1024x64.Idx) 1).val = d.val := by
  obtain ⟨-, -, -, -, e0, e1⟩ := block_index t
  constructor
  · show win0_2.index t (0 : Fin 2) * 256 + 1 * p.val = _; omega
  · show win0_2.index t (1 : Fin 2) * 64 + 1 * d.val = _; omega

/-- Reading any contents of the result through point t's output block reads them at the block's entries. -/
theorem read_out_block (c : Dev nD) (G : Buf (Elt F) ((c : Thread nD τ).loc main_v0)) (t : Fin cfg0.N)
    (j : ((cfg0.win 2).xblock (grid0.coords t)).Idx) :
    ((cfg0.win 2).blk t).view.read (Elt F) G j = G (((cfg0.win 2).blk t).view.emb j) := rfl

/-- The output's blocks lie inside the result, so the part of a staged block that is written back is the whole block. -/
theorem cut_out_block (X : Vec F S256x64 .f32) (t : Fin cfg0.N) (p : Fin 256) (d : Fin 64) :
    (cfg0.win 2).cut (grid0.coords t) X (ix2 p d) = X (ix2 p d) := rfl

/-- An index of the result is in point t's output block iff each coordinate is in the block's range on its axis. -/
theorem mem_out_block (t : Fin cfg0.N) (i : S1024x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v0).slice (win0_2.rect t)).set ↔ _
  rw [View.set_slice_whole, Rect.mem_set_unit]
  exact Iff.rfl

/-- Every index of the result lies in the output block of a point that writes back: the last point of its row-block. -/
theorem covered (i : S1024x64.Idx) :
    ∃ t : Fin cfg0.N, (cfg0.win 2).flush t = true ∧ i ∈ ((cfg0.win 2).blk t).view.set := by
  have hi0 : (i 0).val < 1024 := (i 0).isLt
  have hi1 : (i 1).val < 64 := (i 1).isLt
  have hN : cfg0.N = 64 := N_0
  let t : Fin cfg0.N := ⟨16 * ((i 0).val / 256) + 15, by omega⟩
  have ht : t.val = 16 * ((i 0).val / 256) + 15 := rfl
  obtain ⟨-, -, -, -, e0, e1⟩ := block_index t
  refine ⟨t, (flush0_2 t).mpr (by omega), ?_⟩
  rw [mem_out_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 64 ≤ (i 1).val ∧ (i 1).val < win0_2.index t (1 : Fin 2) * 64 + 64; omega

end Cert.KernelIdeal.Blocks

end
-- ==== Proof.LibSums.lean ====
/-
  General lemmas on finite sums, used to compare a sum accumulated tile by tile over zero-padded rows with the plain sum
  over the rows.

  * `coe_sum`: the inclusion of the reals in the extended reals commutes with finite sums.
  * `partialSum`: for a family indexed by `Fin (T * B)`, seen as `T` consecutive tiles of `B` entries, the sum of the
    entries of the first `t` tiles. It starts at `0`, grows by one tile's sum at each step, and ends at the full sum;
    so any accumulator obeying the same recurrence ends at the full sum (`acc_eq_sum`).
  * `sum_pad`: extending a family on `Fin n` by zeros to `Fin N` (`n ≤ N`) does not change its sum.
  Each statement is given for symbolic extents and again for the literal extents 62 * 16384 = 1015808 and
  1000000 ≤ 1015808.
-/
import Mathlib
import Idealize.ShloMosaic.PureOps.Ideal

noncomputable section

namespace Cert.LibSums

open BigOperators

/-! ### Real sums inside the extended reals -/

/-- The inclusion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion `ℝ → EReal` commutes with a sum over a whole finite type. -/
theorem coe_sum_univ {ι : Type*} [Fintype ι] (f : ι → ℝ) :
    ((∑ i, f i : ℝ) : EReal) = ∑ i, (f i : EReal) :=
  coe_sum Finset.univ f

/-! ### A sum accumulated tile by tile -/

section Tiles

variable {M : Type*} [AddCommMonoid M]

/-- Entry `i` of tile `t` lies inside `T` tiles of `B` entries. -/
theorem tile_idx_lt {T B t i : ℕ} (ht : t < T) (hi : i < B) : t * B + i < T * B := by
  have h1 : (t + 1) * B ≤ T * B := Nat.mul_le_mul_right B ht
  have h2 : (t + 1) * B = t * B + B := Nat.succ_mul t B
  omega

/-- The sum of the entries of the first `t` tiles of a family of `T` tiles of `B` entries: the entries whose position is
    below `t * B`. -/
def partialSum {T B : ℕ} (f : Fin (T * B) → M) (t : ℕ) : M :=
  ∑ p : Fin (T * B), if p.val < t * B then f p else 0

/-- No tile, no entry: the partial sum starts at zero. -/
theorem partialSum_zero {T B : ℕ} (f : Fin (T * B) → M) : partialSum f 0 = 0 := by
  unfold partialSum
  refine Finset.sum_eq_zero fun p _ => ?_
  rw [if_neg]
  omega

/-- All `T` tiles hold every entry: the last partial sum is the full sum. -/
theorem partialSum_top {T B : ℕ} (f : Fin (T * B) → M) : partialSum f T = ∑ p, f p := by
  unfold partialSum
  exact Finset.sum_congr rfl fun p _ => if_pos p.isLt

/-- One more tile adds that tile's sum: positions `t * B ≤ p < (t + 1) * B` are exactly `t * B + i` for `i < B`. -/
theorem partialSum_succ {T B : ℕ} (f : Fin (T * B) → M) {t : ℕ} (ht : t < T) :
    partialSum f (t + 1)
      = partialSum f t + ∑ i : Fin B, f ⟨t * B + i.val, tile_idx_lt ht i.isLt⟩ := by
  unfold partialSum
  have hB : (t + 1) * B = t * B + B := Nat.succ_mul t B
  have hsplit : ∀ p : Fin (T * B), (if p.val < (t + 1) * B then f p else 0)
      = (if p.val < t * B then f p else 0)
        + (if t * B ≤ p.val ∧ p.val < (t + 1) * B then f p else 0) := by
    intro p
    by_cases h1 : p.val < t * B
    · have h2 : p.val < (t + 1) * B := by omega
      have h3 : ¬ (t * B ≤ p.val ∧ p.val < (t + 1) * B) := by omega
      rw [if_pos h1, if_pos h2, if_neg h3, add_zero]
    · by_cases h2 : p.val < (t + 1) * B
      · have h3 : t * B ≤ p.val ∧ p.val < (t + 1) * B := ⟨by omega, h2⟩
        rw [if_neg h1, if_pos h2, if_pos h3, zero_add]
      · have h3 : ¬ (t * B ≤ p.val ∧ p.val < (t + 1) * B) := fun h => h2 h.2
        rw [if_neg h1, if_neg h2, if_neg h3, add_zero]
  rw [Finset.sum_congr rfl (fun p _ => hsplit p), Finset.sum_add_distrib]
  congr 1
  rw [← Finset.sum_filter]
  symm
  refine Finset.sum_bij (fun i _ => (⟨t * B + i.val, tile_idx_lt ht i.isLt⟩ : Fin (T * B))) ?_ ?_ ?_ ?_
  · intro i _
    have hi := i.isLt
    simp only [Finset.mem_filter, Finset.mem_univ, true_and]
    constructor <;> omega
  · intro i _ j _ h
    have hv : t * B + i.val = t * B + j.val := congrArg Fin.val h
    exact Fin.ext (by omega)
  · intro p hp
    simp only [Finset.mem_filter, Finset.mem_univ, true_and] at hp
    refine ⟨⟨p.val - t * B, by omega⟩, Finset.mem_univ _, ?_⟩
    apply Fin.ext
    show t * B + (p.val - t * B) = p.val
    omega
  · intro i _
    rfl

/-- An accumulator that starts at zero and gains one tile's sum at each of `T` steps is, after `t ≤ T` steps, the partial
    sum of the first `t` tiles. -/
theorem acc_eq_partialSum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    ∀ t, t ≤ T → acc t = partialSum f t := by
  intro t
  induction t with
  | zero => intro _; rw [h0, partialSum_zero]
  | succ t ih =>
    intro ht
    have ht' : t < T := ht
    rw [hs t ht', partialSum_succ f ht', ih (Nat.le_of_lt ht')]

/-- … and after all `T` steps it is the full sum. -/
theorem acc_eq_sum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    acc T = ∑ p, f p := by
  rw [acc_eq_partialSum f acc h0 hs T (Nat.le_refl T), partialSum_top]

/-! The same at 62 tiles of 16384 entries, 62 * 16384 = 1015808. -/

/-- Entry `i` of tile `t` lies below 1015808. -/
theorem tile_idx_lt' (t : Fin 62) (i : Fin 16384) : t.val * 16384 + i.val < 1015808 := by
  have ht := t.isLt
  have hi := i.isLt
  omega

/-- The sum of the first `t` tiles of 16384 entries of a family of 1015808 entries. -/
def partialSum62 (f : Fin 1015808 → M) (t : ℕ) : M :=
  ∑ p : Fin 1015808, if p.val < t * 16384 then f p else 0

theorem partialSum62_eq (f : Fin 1015808 → M) (t : ℕ) :
    partialSum62 f t = partialSum (T := 62) (B := 16384) f t := rfl

/-- It starts at zero. -/
theorem partialSum62_zero (f : Fin 1015808 → M) : partialSum62 f 0 = 0 :=
  partialSum_zero (T := 62) (B := 16384) f

/-- Tile `t` adds its 16384 entries. -/
theorem partialSum62_succ (f : Fin 1015808 → M) (t : Fin 62) :
    partialSum62 f (t.val + 1)
      = partialSum62 f t.val + ∑ i : Fin 16384, f ⟨t.val * 16384 + i.val, tile_idx_lt' t i⟩ :=
  partialSum_succ (T := 62) (B := 16384) f t.isLt

/-- After 62 tiles it is the full sum. -/
theorem partialSum62_top (f : Fin 1015808 → M) : partialSum62 f 62 = ∑ p, f p :=
  partialSum_top (T := 62) (B := 16384) f

/-- An accumulator over 62 grid points that starts at zero and gains tile `t`'s sum at point `t` ends at the full sum over
    the 1015808 entries. -/
theorem acc62_eq_sum (f : Fin 1015808 → M) (acc : ℕ → M) (h0 : acc 0 = 0)
    (hs : ∀ t : Fin 62, acc (t.val + 1)
      = acc t.val + ∑ i : Fin 16384, f ⟨t.val * 16384 + i.val, tile_idx_lt' t i⟩) :
    acc 62 = ∑ p, f p :=
  acc_eq_sum (T := 62) (B := 16384) f acc h0 (fun t ht => hs ⟨t, ht⟩)

end Tiles

/-! ### Zero padding -/

section Pad

variable {M : Type*} [AddCommMonoid M]

/-- A family on `Fin n` extended by zeros to `Fin N`, `n ≤ N`, has the same sum. -/
theorem sum_pad {n N : ℕ} (hnN : n ≤ N) (g : Fin n → M) :
    (∑ p : Fin N, (if h : p.val < n then g ⟨p.val, h⟩ else 0)) = ∑ r : Fin n, g r := by
  have h1 : (∑ p : Fin N, (if h : p.val < n then g ⟨p.val, h⟩ else 0))
      = ∑ k ∈ Finset.range N, (if h : k < n then g ⟨k, h⟩ else 0) :=
    Fin.sum_univ_eq_sum_range (fun k => if h : k < n then g ⟨k, h⟩ else 0) N
  have h2 : (∑ r : Fin n, g r) = ∑ k ∈ Finset.range n, (if h : k < n then g ⟨k, h⟩ else 0) := by
    rw [← Fin.sum_univ_eq_sum_range (fun k => if h : k < n then g ⟨k, h⟩ else 0) n]
    exact Finset.sum_congr rfl fun r _ => by rw [dif_pos r.isLt]
  rw [h1, h2]
  symm
  refine Finset.sum_subset (fun k hk => Finset.mem_range.2 (lt_of_lt_of_le (Finset.mem_range.1 hk) hnN)) fun k _ hk => ?_
  have hkn : ¬ k < n := fun hlt => hk (Finset.mem_range.2 hlt)
  exact dif_neg hkn

/-- The same for a family of a position alone, cut off at `n`. -/
theorem sum_pad_nat {n N : ℕ} (hnN : n ≤ N) (g : ℕ → M) :
    (∑ p : Fin N, (if p.val < n then g p.val else 0)) = ∑ r : Fin n, g r.val := by
  rw [← sum_pad hnN (fun r : Fin n => g r.val)]
  exact Finset.sum_congr rfl fun p _ => by
    by_cases h : p.val < n
    · rw [if_pos h, dif_pos h]
    · rw [if_neg h, dif_neg h]

/-- 1,000,000 rows padded by zeros to 1,015,808 have the same sum. -/
theorem sum_pad_rows (g : Fin 1000000 → M) :
    (∑ p : Fin 1015808, (if h : p.val < 1000000 then g ⟨p.val, h⟩ else 0)) = ∑ r : Fin 1000000, g r :=
  sum_pad (by norm_num) g

/-- The same for a table of rows and columns, at a fixed column. -/
theorem sum_pad_rows₂ {κ : Type*} (g : Fin 1000000 → κ → M) (c : κ) :
    (∑ p : Fin 1015808, (if h : p.val < 1000000 then g ⟨p.val, h⟩ c else 0)) = ∑ r : Fin 1000000, g r c :=
  sum_pad_rows (fun r => g r c)

end Pad

end Cert.LibSums

end
-- ==== Proof.Spec.lean ====
/-
  The result both programs compute, and the one law that joins them.

  For a [1024, 131072] array `a` and a [131072, 64] array `b` of extended reals, entry (r, d) of the product is the sum
  over the 131072 positions K of a(r, K) · b(K, d). The kernel never forms this sum at once: it walks the positions in
  16 consecutive runs of 8192 and adds one run's partial sum at a time. Addition of extended reals is commutative and
  associative (they form an additive commutative monoid, infinities included), so the sum of the 16 partial sums is the
  whole sum; no entry has to be finite for that.
-/
import Idealize.ShloMosaic.Lib.ValueIdx
import Idealize.ShloMosaic.PureOps.Ideal
import proofs.«122120_j42116449304773_1_alg».proof.Proof.LibSums

noncomputable section

namespace Cert.MaskProduct

open Idealize.ShloMosaic Idealize.ShloMosaic.ValueIdx

/-- Entry (r, d) of the product of `a` and `b`: the sum over all 131072 positions. -/
def product (a : FVec Ideal ⟨2, ![1024, 131072]⟩ .f32) (b : FVec Ideal ⟨2, ![131072, 64]⟩ .f32) :
    FVec Ideal ⟨2, ![1024, 64]⟩ .f32 :=
  fun i => ∑ K : Fin 131072, a (ix2 (i 0) K) * b (ix2 K (i 1))

theorem product_apply (a : FVec Ideal ⟨2, ![1024, 131072]⟩ .f32) (b : FVec Ideal ⟨2, ![131072, 64]⟩ .f32)
    (r : Fin 1024) (d : Fin 64) :
    product a b (ix2 r d) = ∑ K : Fin 131072, a (ix2 r K) * b (ix2 K d) := rfl

/-- Position k of run s lies below 131072. -/
theorem pos_lt {s k : ℕ} (hs : s < 16) (hk : k < 8192) : s * 8192 + k < 131072 := by omega

/-- A sum over 131072 positions is the sum, over the 16 runs, of each run's 8192 terms (positions s·8192 + k). The terms
    are given as a function of the position as a natural number, so that no bound proof appears in the statement. -/
theorem sum_runs {M : Type*} [AddCommMonoid M] (g : ℕ → M) :
    (∑ s ∈ Finset.range 16, ∑ k : Fin 8192, g (s * 8192 + k.val)) = ∑ K : Fin 131072, g K.val :=
  Cert.LibSums.acc_eq_sum (T := 16) (B := 8192) (fun p : Fin (16 * 8192) => g p.val)
    (fun t => ∑ s ∈ Finset.range t, ∑ k : Fin 8192, g (s * 8192 + k.val))
    (Finset.sum_range_zero _) (fun t _ => Finset.sum_range_succ _ t)

end Cert.MaskProduct

end
-- ==== Proof.Result.lean ====
/-
  The kernel's result array is the whole product.

  Fix a row-block q and an entry (p, d) of its output block, that is, row r = 256·q + p of the result. The output block is
  written back once, at the row-block's last point, and receives 0 + Σ_{s < 16} (point 16·q + s's run sum). Point
  16·q + s reads rows 256·q … of the first argument at positions 8192·s …, and those positions of the second argument, so
  its run sum is Σ_{k < 8192} a(r, 8192·s + k) · b(8192·s + k, d). Summing the 16 runs gives the sum over all 131072
  positions (`MaskProduct.sum_runs`), which is entry (r, d) of the product. The four last points' blocks tile the result,
  so the whole array ends at the product.
-/
import proofs.«122120_j42116449304773_1_alg».proof.Proof.Gen.KernelIdeal.Value
import proofs.«122120_j42116449304773_1_alg».proof.Proof.Accumulated
import proofs.«122120_j42116449304773_1_alg».proof.Proof.Blocks
import proofs.«122120_j42116449304773_1_alg».proof.Proof.Spec

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The first argument (the mask) as the launch finds it. -/
abbrev argA (c : Dev nD) : FVec Ideal ⟨2, ![1024, 131072]⟩ .f32 := m ((c : Thread nD τ).loc main_arg0)
/-- The second argument as the launch finds it. -/
abbrev argB (c : Dev nD) : FVec Ideal ⟨2, ![131072, 64]⟩ .f32 := m ((c : Thread nD τ).loc main_arg1)

/-- The product of the two argument arrays as the launch finds them. -/
abbrev whole (c : Dev nD) : Buf (Elt Ideal) ((c : Thread nD τ).loc main_v0) :=
  MaskProduct.product (argA m c) (argB m c)

/-- The term of entry (r, d) of the product at position K (zero for a number that is no position). -/
def term (c : Dev nD) (r : Fin 1024) (d : Fin 64) (K : ℕ) : EReal :=
  if h : K < 131072 then argA m c (ix2 r ⟨K, h⟩) * argB m c (ix2 ⟨K, h⟩ d) else 0

/-- Entry (r, d) of the product is the sum of its 131072 terms. -/
theorem whole_apply (c : Dev nD) (r : Fin 1024) (d : Fin 64) :
    whole m c (ix2 r d) = ∑ K : Fin 131072, term m c r d K.val := by
  show (∑ K : Fin 131072, argA m c (ix2 r K) * argB m c (ix2 K d)) = _
  refine Finset.sum_congr rfl fun K _ => ?_
  unfold term
  rw [dif_pos K.isLt]

/-- The run sum of the point at offset s of t's row, at entry (p, d), is the sum of the terms of row
    r = 256·(t/16) + p at the positions of run s. -/
theorem addend_row (c : Dev nD) (t : Fin cfg0.N) (s : ℕ) (hs : s < 16) (p : Fin 256) (d : Fin 64) (r : Fin 1024)
    (hr : r.val = 256 * (t.val / 16) + p.val) :
    Accumulated.addend m c (16 * (t.val / 16) + s) (ix2 p d) = ∑ k : Fin 8192, term m c r d (s * 8192 + k.val) := by
  have hN : cfg0.N = 64 := N_0
  have ht := t.isLt
  have hlt : 16 * (t.val / 16) + s < cfg0.N := by omega
  rw [Accumulated.addend_of_lt m c _ hlt]
  unfold TileProduct.runSum
  refine Finset.sum_congr rfl fun k _ => ?_
  have hk := k.isLt
  have hK : s * 8192 + k.val < 131072 := by omega
  unfold term
  rw [dif_pos hK]
  exact congrArg₂ (fun u v : EReal => u * v)
    (Blocks.left_block m c ⟨16 * (t.val / 16) + s, hlt⟩ p k (ix2 r ⟨s * 8192 + k.val, hK⟩)
      (by show r.val = 256 * ((16 * (t.val / 16) + s) / 16) + p.val; omega)
      (by show s * 8192 + k.val = 8192 * ((16 * (t.val / 16) + s) % 16) + k.val; omega))
    (Blocks.right_block m c ⟨16 * (t.val / 16) + s, hlt⟩ k d (ix2 ⟨s * 8192 + k.val, hK⟩ d)
      (by show s * 8192 + k.val = 8192 * ((16 * (t.val / 16) + s) % 16) + k.val; omega)
      rfl)

/-- What a point that writes back writes is its block of the product. -/
theorem flushed_eq (c : Dev nD) (t : Fin cfg0.N) (hf : (cfg0.win 2).flush t = true) :
    (dats m 0 c).flushed 2 t = ((cfg0.win 2).blk t).view.read (Elt Ideal) (whole m c) := by
  have h1 : t.val % 16 = 15 := (flush0_2 t).mp hf
  have hN : cfg0.N = 64 := N_0
  have ht := t.isLt
  rw [Value.flushed2]
  funext j
  obtain ⟨p, d, rfl⟩ : ∃ (p : Fin 256) (d : Fin 64), j = ix2 p d := ⟨j 0, j 1, eq_ix2 (n0 := 256) (n1 := 64) j⟩
  have hp := p.isLt
  obtain ⟨o0, o1⟩ := Blocks.out_block t p d
  have hI : ((cfg0.win 2).blk t).view.emb (ix2 p d) = ix2 (⟨256 * (t.val / 16) + p.val, by omega⟩ : Fin 1024) d :=
    funext fun a => Fin.ext (by
      match a with
      | ⟨0, _⟩ => exact o0
      | ⟨1, _⟩ => exact o1)
  refine (Blocks.cut_out_block (outsAt0 m c t.val t.isLt).1 t p d).trans ?_
  refine Eq.trans ?_ (Blocks.read_out_block c (whole m c) t (ix2 p d)).symm
  rw [hI, whole_apply, Accumulated.written_back m c t h1 (ix2 p d), zero_add, ← MaskProduct.sum_runs]
  exact Finset.sum_congr rfl fun s hs => addend_row m c t s (Finset.mem_range.mp hs) p d _ rfl

/-- The result array after the run is the product. -/
theorem final (c : Dev nD) : (dats m 0 c).arrAt 2 cfg0.N = whole m c :=
  (dats m 0 c).arrAt_eq_of_cover 2 (whole m c) (fun t hf => flushed_eq m c t hf) Blocks.covered

/-- The kernel's run: it terminates with the result array at the product and the two arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefProduct.lean ====
/-
  The reference's result is the same product.

  The reference is one matrix product of the [1024, 131072] array with the [131072, 64] array, contracting the first
  array's second axis with the second array's first axis. Over the extended reals its entry (r, d) is the sum over the
  131072 positions K of a(r, K) · b(K, d): the same function of the two arrays as the kernel's result.
-/
import proofs.«122120_j42116449304773_1_alg».proof.Proof.Gen.ReferenceIdeal.Read
import proofs.«122120_j42116449304773_1_alg».proof.Proof.Spec

noncomputable section

open Idealize.ShloMosaic Idealize.ShloMosaic.ValueIdx

namespace Cert.ReferenceIdeal.RefValue

open Cert.ReferenceIdeal Cert.ReferenceIdeal.Gen

/-- The reference's matrix product, at the extended reals, is the product of the specification. -/
theorem product_eq (x0 : (⟨S1024x131072, .f32⟩ : BufTy).Contents (Elt Ideal)) (x1 : (⟨S131072x64, .f32⟩ : BufTy).Contents (Elt Ideal)) :
    Read.val_main_v0 (F := Ideal) x0 x1 = MaskProduct.product x0 x1 := by
  funext i
  rw [Read.val_main_v0_apply]
  show _ = ∑ K : Fin 131072, x0 (ix2 (i 0) K) * x1 (ix2 K (i 1))
  refine Finset.sum_congr rfl fun k _ => ?_
  have el : Read.lidx_main_v0 i k = ix2 (i 0) k := funext fun a => Fin.ext (by
    match a with
    | ⟨0, _⟩ => rfl
    | ⟨1, _⟩ => rfl)
  have er : Read.ridx_main_v0 i k = ix2 k (i 1) := funext fun a => Fin.ext (by
    match a with
    | ⟨0, _⟩ => rfl
    | ⟨1, _⟩ => rfl)
  exact congrArg₂ (· * ·) (congrArg x0 el) (congrArg x1 er)

end Cert.ReferenceIdeal.RefValue

end
-- ==== Proof.lean ====
/-
  A binary-mask aggregation as a matrix product: out = mask · x, with mask a [1024, 131072] array and x a [131072, 64]
  array, against the plain matrix product of the two.

  The kernel tiles the product. Its grid has 4 row-blocks of 256 rows and, inside each, 16 consecutive runs of 8192
  contraction positions. A [256, 64] running block is kept across the 16 points of a row-block: zeroed at the first,
  increased at every point by that point's partial product (the [256, 8192] block of mask times the [8192, 64] block of
  x), and copied to the output block at the last. Over the extended reals the narrowing of the blocks to a shorter float
  format is the identity and a product into a zero accumulator is a plain sum, so entry (r, d) of the output is
      0 + Σ_{s < 16} Σ_{k < 8192} mask(r, 8192·s + k) · x(8192·s + k, d),
  while the reference's entry is Σ_{K < 131072} mask(r, K) · x(K, d). The two agree because addition of extended reals
  is commutative and associative, so a sum may be taken run by run; this holds for every input, infinite entries
  included, and the finiteness of the inputs is never used.

  The modules: Spec (the product as one function of the arrays, and the run-by-run regrouping of its sum), TileStep (what
  each point leaves in the running block and in the output block), TileProduct (one point's arithmetic entry by entry),
  Blocks (where each point's blocks sit in the arrays, and that the written-back blocks tile the result), Accumulated
  (the running block as a sum over the points of its row-block), Result (the result array is the product), RefProduct
  (the reference's product is the same function). The three frames are the generated ones; the idealization rewrote no
  operation, so there is nothing to preserve.
-/
import proofs.«122120_j42116449304773_1_alg».proof.Defs
import proofs.«122120_j42116449304773_1_alg».proof.Proof.Gen.Kernel
import proofs.«122120_j42116449304773_1_alg».proof.Proof.Gen.Kernel.Skeleton
import proofs.«122120_j42116449304773_1_alg».proof.Proof.Gen.Kernel.Launch
import proofs.«122120_j42116449304773_1_alg».proof.Proof.Gen.Kernel.Points
import proofs.«122120_j42116449304773_1_alg».proof.Proof.Gen.Kernel.Frame
import proofs.«122120_j42116449304773_1_alg».proof.Proof.Gen.KernelIdeal
import proofs.«122120_j42116449304773_1_alg».proof.Proof.Gen.KernelIdeal.Skeleton
import proofs.«122120_j42116449304773_1_alg».proof.Proof.Gen.KernelIdeal.Launch
import proofs.«122120_j42116449304773_1_alg».proof.Proof.Gen.KernelIdeal.Points
import proofs.«122120_j42116449304773_1_alg».proof.Proof.Gen.KernelIdeal.Frame
import proofs.«122120_j42116449304773_1_alg».proof.Proof.Gen.KernelIdeal.Value
import proofs.«122120_j42116449304773_1_alg».proof.Proof.Gen.ReferenceIdeal
import proofs.«122120_j42116449304773_1_alg».proof.Proof.Gen.ReferenceIdeal.Run
import proofs.«122120_j42116449304773_1_alg».proof.Proof.Gen.ReferenceIdeal.Read
import proofs.«122120_j42116449304773_1_alg».proof.Proof.Gen.Pre_finite_inputs
import proofs.«122120_j42116449304773_1_alg».proof.Proof.Result
import proofs.«122120_j42116449304773_1_alg».proof.Proof.RefProduct
import Idealize.ShloMosaic.Adequacy
import Idealize.ShloMosaic.Init

noncomputable section

namespace Cert.Proof

open Idealize.ShloMosaic Idealize.SL.Sem

/-- The word-level kernel terminates without a fault and leaves its two arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is one host operation: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on mask and x, the kernel's result array ends at the product of the two (accumulated run by
    run) and the reference's at the same product (summed at once). -/
theorem algebraic : Cert.algebraic_KernelIdeal_ReferenceIdeal := by
  intro m ρ m' ρ' _ hagree
  refine ⟨fun c => Cert.KernelIdeal.Result.whole m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.product_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
